-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S80x10000 : Shape := ⟨2, ![80, 10000]⟩
abbrev S80x128 : Shape := ⟨2, ![80, 128]⟩
abbrev S80 : Shape := ⟨1, ![80]⟩
abbrev S80x1 : Shape := ⟨2, ![80, 1]⟩

abbrev nBuf : Space → Nat
  | .hbm => 12
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S1x128, .f32⟩
  | .hbm, ⟨9, _⟩ => ⟨S1x128, .f32⟩
  | .hbm, ⟨10, _⟩ => ⟨S10000x128, .f32⟩
  | .hbm, ⟨11, _⟩ => ⟨S10000x128, .f32⟩
  | .local _ .vmem, ⟨0, _⟩ => ⟨S80x10000, .f32⟩
  | .local _ .vmem, ⟨1, _⟩ => ⟨S80x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S80x128, .f32⟩
  | .local _ .vmem, ⟨8, _⟩ => ⟨S80x128, .f32⟩
  | .local _ .vmem, ⟨9, _⟩ => ⟨S80x10000, .f32⟩
  | .local _ .vmem, ⟨10, _⟩ => ⟨S80x10000, .f32⟩
  | .local _ .vmem, ⟨11, _⟩ => ⟨S10000x128, .f32⟩
  | .local _ .vmem, ⟨12, _⟩ => ⟨S80x128, .f32⟩
  | .local _ .vmem, ⟨13, _⟩ => ⟨S80x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S80x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S80x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S128x128_S128x128_1_0 : S128x128.Transposes [1, 0] S128x128
  shapeCasts_S128_S1x128 : S128.ShapeCasts S1x128
  inb_S80x10000_S80x10000_0_0 : ∀ a, (![0, 0] : Fin 2 → Nat) a + S80x10000.size a ≤ S80x10000.size a
  h_S80x10000 : 0 < S80x10000.numel
  inb_S10000x128_S10000x128_0_0 : ∀ a, (![0, 0] : Fin 2 → Nat) a + S10000x128.size a ≤ S10000x128.size a
  h_S10000x128 : 0 < S10000x128.numel
  reduces_S80x10000_S80 : S80x10000.Reduces [1] S80
  shapeCasts_S80_S80x1 : S80.ShapeCasts S80x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S80x1_S80x128 : S80x1.Broadcasts S80x128
  broadcasts_S1x128_S80x128 : S1x128.Broadcasts S80x128
  inb_S80x128_S80x128_0_0 : ∀ a, (![0, 0] : Fin 2 → Nat) a + S80x128.size a ≤ S80x128.size a
  h_S80x128 : 0 < S80x128.numel
  shapeCasts_S10000x128_S10000x128 : S10000x128.ShapeCasts S10000x128
  dot_S80x10000_S10000x128_S80x128_1_0_0_1_n_n_wf : DotDims.WF S80x10000 S10000x128 S80x128 [1] [0] [0] [1] [] []
  dot_S80x128_S128x128_S80x128_1_0_0_1_n_n_wf : DotDims.WF S80x128 S128x128 S80x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x10000.size a ≤ S10000x10000.size a
  hwx0_0 : ∀ i : grid0.Coords, EltTy.bits .f32 = 32 ∨ (Rect.block (s := S10000x10000) S80x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S80x128.size a ≤ S10000x128.size a
  hwx0_6 : ∀ i : grid0.Coords, EltTy.bits .f32 = 32 ∨ (Rect.block (s := S10000x128) S80x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .f32 = 32 ∨ (Rect.block (s := S10000x10000) S80x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x128.size a ≤ S10000x128.size a
  hwx1_2 : ∀ i : grid1.Coords, EltTy.bits .f32 = 32 ∨ (Rect.block (s := S10000x128) S80x128.size (cc1_transform_2 i) (hinb1_2 i)).WholeWords (EltTy.packing .f32)

variable [Facts₀]

def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf
def dot_S80x128_S128x128_S80x128_1_0_0_1_n_n : DotDims S80x128 S128x128 S80x128 where
  lhsContracting := [1]
  rhsContracting := [0]
  lhsNonContracting := [0]
  rhsNonContracting := [1]
  lhsBatch := []
  rhsBatch := []
  wf := dot_S80x128_S128x128_S80x128_1_0_0_1_n_n_wf

abbrev win0_0 : Pipeline.Window sig grid0 :=
  Pipeline.Window.ofSpec (Memref.whole main_arg1) S80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S80x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S80x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S128x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelRun.lean ====
/-
  The kernel program's run with its result named.

  The program is three segments: the host stretch that transposes the two weight matrices and recasts the two biases
  as rows, the first pass and the second pass. The generated frame certificate folds the buffer contents through
  these segments (`Gen.W1` after the host stretch, `Gen.W2` after the first pass, `Gen.W3` after the second) and
  launches the segments on the library's several-regions theorem, reading back only the argument arrays. Here the same
  launch is read back at one more buffer: the result `main_v5` ends at `Gen.W3`'s contents, which the second pass's
  write-backs define.
-/
import proofs.«172992_g73469710566064_cont_sun_m_849_4_alg».proof.Proof.Gen.KernelIdeal.Frame

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the several-regions theorem's implicit arguments are found by unifying its conclusion with this one, which takes
-- unfolding plain definitions in a metavariable's type
set_option backward.isDefEq.respectTransparency.types false in
/-- Every weakly fair execution of the kernel program terminates, nothing faulting, with the result buffer at the
    contents the second pass leaves (`Gen.W3`) and the arguments as launched. -/
theorem run_result : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Passes

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.Spec.lean ====
/-
  The two passes of a two-layer graph convolution, index by index on the extended reals.

  With `A` the dense adjacency, `X` the node features, `W0t`, `W1t` the transposed layer weights and `B0`, `B1` the
  biases as one-row matrices:

    pre   A X W0t B0        (r, k) = ∑ j, (∑ l, A(r,l) · X(l,j)) · W0t(j,k) + (∑ l, A(r,l)) · B0(0,k)
    feat  A X W0t B0 W1t B1 (r, c) = ∑ k, max (pre(r,k)) 0 · W1t(k,c) + B1(0,c)
    agg   A G               (r, c) = ∑ l, A(r,l) · G(l,c)

  `pre` is the first layer with the aggregation done BEFORE the linear map (rows of `A` combined with `X`, then the
  weights, the bias weighted by the row sum of `A`). `feat` applies the rectifier and the second linear map; `agg`
  is one aggregation by the adjacency. Row `r` of `pre` and of `feat` depends on `A` through its row `r` only, which
  is what lets a row block of `A` stand for `A` (`feat_rows`, `agg_rows`).
-/
import Idealize.ShloMosaic.PureOps.Ideal
import Idealize.ShloMosaic.Lib.ValueIdx

noncomputable section

namespace Cert.Gcn

open Idealize.ShloMosaic Idealize.ShloMosaic.ValueIdx

/-- An `a × b` matrix of extended reals, indexed by the rank-2 index set. -/
abbrev Mat (a b : ℕ) : Type := FVec Ideal ⟨2, ![a, b]⟩ .f32

variable {n m d h o : ℕ}

/-- The first layer before the rectifier, aggregation first. -/
def pre (A : Mat n m) (X : Mat m d) (W0t : Mat d h) (B0 : Mat 1 h) (r : Fin n) (k : Fin h) : EReal :=
  (∑ j : Fin d, (∑ l : Fin m, A (ix2 r l) * X (ix2 l j)) * W0t (ix2 j k)) + (∑ l : Fin m, A (ix2 r l)) * B0 (ix2 0 k)

/-- The rectified first layer through the second linear map. -/
def feat (A : Mat n m) (X : Mat m d) (W0t : Mat d h) (B0 : Mat 1 h) (W1t : Mat h o) (B1 : Mat 1 o)
    (r : Fin n) (c : Fin o) : EReal :=
  (∑ k : Fin h, max (pre A X W0t B0 r k) (Ideal.ofBits .f32 0x00000000#32) * W1t (ix2 k c)) + B1 (ix2 0 c)

/-- One aggregation by the adjacency. -/
def agg (A : Mat n m) (G : Mat m o) (r : Fin n) (c : Fin o) : EReal :=
  ∑ l : Fin m, A (ix2 r l) * G (ix2 l c)

/-- `feat` as a matrix. -/
def featArr (A : Mat n m) (X : Mat m d) (W0t : Mat d h) (B0 : Mat 1 h) (W1t : Mat h o) (B1 : Mat 1 o) : Mat n o :=
  fun i => feat A X W0t B0 W1t B1 (i 0) (i 1)

/-- `agg` as a matrix. -/
def aggArr (A : Mat n m) (G : Mat m o) : Mat n o := fun i => agg A G (i 0) (i 1)

/-- Row `p` of `pre` over a matrix `A'` whose row `p` is row `r` of `A` is row `r` of `pre` over `A`. -/
theorem pre_rows {n' : ℕ} (A' : Mat n' m) (A : Mat n m) (X : Mat m d) (W0t : Mat d h) (B0 : Mat 1 h)
    (p : Fin n') (r : Fin n) (hrow : ∀ l : Fin m, A' (ix2 p l) = A (ix2 r l)) (k : Fin h) :
    pre A' X W0t B0 p k = pre A X W0t B0 r k := by
  unfold pre
  simp only [hrow]

/-- The same for `feat`. -/
theorem feat_rows {n' : ℕ} (A' : Mat n' m) (A : Mat n m) (X : Mat m d) (W0t : Mat d h) (B0 : Mat 1 h) (W1t : Mat h o)
    (B1 : Mat 1 o) (p : Fin n') (r : Fin n) (hrow : ∀ l : Fin m, A' (ix2 p l) = A (ix2 r l)) (c : Fin o) :
    feat A' X W0t B0 W1t B1 p c = feat A X W0t B0 W1t B1 r c := by
  unfold feat
  simp only [pre_rows A' A X W0t B0 p r hrow]

/-- The same for `agg`. -/
theorem agg_rows {n' : ℕ} (A' : Mat n' m) (A : Mat n m) (G : Mat m o) (p : Fin n') (r : Fin n)
    (hrow : ∀ l : Fin m, A' (ix2 p l) = A (ix2 r l)) (c : Fin o) : agg A' G p c = agg A G r c := by
  unfold agg
  simp only [hrow]

/-- A point's operands against whole arrays: when the point's adjacency block has row `r` of `A` as its row `p` and
    its other operands are the whole arrays, its `feat` at `(p, q)` is the arrays' at `(r, q)`. -/
theorem feat_block {n' : ℕ} (x0 : Mat n' m) (x1 : Mat m d) (x2 : Mat d h) (x3 : Mat 1 h) (x4 : Mat h o) (x5 : Mat 1 o)
    (A : Mat n m) (X : Mat m d) (W0t : Mat d h) (B0 : Mat 1 h) (W1t : Mat h o) (B1 : Mat 1 o)
    (p : Fin n') (q : Fin o) (r : Fin n)
    (h0 : ∀ l : Fin m, x0 (ix2 p l) = A (ix2 r l)) (h1 : ∀ y, x1 y = X y) (h2 : ∀ y, x2 y = W0t y)
    (h3 : ∀ y, x3 y = B0 y) (h4 : ∀ y, x4 y = W1t y) (h5 : ∀ y, x5 y = B1 y) :
    feat x0 x1 x2 x3 x4 x5 p q = feat A X W0t B0 W1t B1 r q := by
  obtain rfl : x1 = X := funext h1
  obtain rfl : x2 = W0t := funext h2
  obtain rfl : x3 = B0 := funext h3
  obtain rfl : x4 = W1t := funext h4
  obtain rfl : x5 = B1 := funext h5
  exact feat_rows x0 A x1 x2 x3 x4 x5 p r h0 q

/-- The same for one aggregation. -/
theorem agg_block {n' : ℕ} (x0 : Mat n' m) (x1 : Mat m o) (A : Mat n m) (G : Mat m o) (p : Fin n') (q : Fin o) (r : Fin n)
    (h0 : ∀ l : Fin m, x0 (ix2 p l) = A (ix2 r l)) (h1 : ∀ y, x1 y = G y) :
    agg x0 x1 p q = agg A G r q := by
  obtain rfl : x1 = G := funext h1
  exact agg_rows x0 A x1 p r h0 q

end Cert.Gcn

end
-- ==== Proof.Tiles.lean ====
/-
  One grid point of each pass, read at coordinates.

  A point of the first pass holds an 80-row block `a` of the adjacency and the whole of the other operands; what it
  stores at `(p, q)` is `Gcn.feat` of those operands at `(p, q)`: two matrix products into zero accumulators, the row
  sum of the block kept as a column and stretched over the 128 lanes, the bias row stretched over the 80 rows, the
  rectifier against a splat zero, and the second product plus its bias row. A point of the second pass stores the
  product of the adjacency block with the whole feature matrix: `Gcn.agg`.
-/
import proofs.«172992_g73469710566064_cont_sun_m_849_4_alg».proof.Proof.Gen.KernelIdeal.Skeleton
import proofs.«172992_g73469710566064_cont_sun_m_849_4_alg».proof.Proof.LibColumnBlocks
import proofs.«172992_g73469710566064_cont_sun_m_849_4_alg».proof.Proof.LibRowOps
import proofs.«172992_g73469710566064_cont_sun_m_849_4_alg».proof.Proof.Spec
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.ValueIdx Cert.Gcn

/-! ## The two products' dimension records: the kept coordinates -/

theorem adjDot_l0 (j : S80x128.Idx) (k : dot_S80x10000_S10000x128_S80x128_1_0_0_1_n_n.contr.Idx) : (dot_S80x10000_S10000x128_S80x128_1_0_0_1_n_n.lhsIdx j k 0).val = (j 0).val := by
  unfold DotDims.lhsIdx
  rw [dif_neg (show ¬(0 : Fin S80x10000.rank) ∈ dot_S80x10000_S10000x128_S80x128_1_0_0_1_n_n.lhsBatch by decide),
    dif_pos (show (0 : Fin S80x10000.rank) ∈ dot_S80x10000_S10000x128_S80x128_1_0_0_1_n_n.lhsNonContracting by decide)]
  rfl

theorem adjDot_r1 (j : S80x128.Idx) (k : dot_S80x10000_S10000x128_S80x128_1_0_0_1_n_n.contr.Idx) : (dot_S80x10000_S10000x128_S80x128_1_0_0_1_n_n.rhsIdx j k 1).val = (j 1).val := by
  unfold DotDims.rhsIdx
  rw [dif_neg (show ¬(1 : Fin S10000x128.rank) ∈ dot_S80x10000_S10000x128_S80x128_1_0_0_1_n_n.rhsBatch by decide),
    dif_pos (show (1 : Fin S10000x128.rank) ∈ dot_S80x10000_S10000x128_S80x128_1_0_0_1_n_n.rhsNonContracting by decide)]
  rfl

theorem wDot_l0 (j : S80x128.Idx) (k : dot_S80x128_S128x128_S80x128_1_0_0_1_n_n.contr.Idx) : (dot_S80x128_S128x128_S80x128_1_0_0_1_n_n.lhsIdx j k 0).val = (j 0).val := by
  unfold DotDims.lhsIdx
  rw [dif_neg (show ¬(0 : Fin S80x128.rank) ∈ dot_S80x128_S128x128_S80x128_1_0_0_1_n_n.lhsBatch by decide),
    dif_pos (show (0 : Fin S80x128.rank) ∈ dot_S80x128_S128x128_S80x128_1_0_0_1_n_n.lhsNonContracting by decide)]
  rfl

theorem wDot_r1 (j : S80x128.Idx) (k : dot_S80x128_S128x128_S80x128_1_0_0_1_n_n.contr.Idx) : (dot_S80x128_S128x128_S80x128_1_0_0_1_n_n.rhsIdx j k 1).val = (j 1).val := by
  unfold DotDims.rhsIdx
  rw [dif_neg (show ¬(1 : Fin S128x128.rank) ∈ dot_S80x128_S128x128_S80x128_1_0_0_1_n_n.rhsBatch by decide),
    dif_pos (show (1 : Fin S128x128.rank) ∈ dot_S80x128_S128x128_S80x128_1_0_0_1_n_n.rhsNonContracting by decide)]
  rfl

/-! ## Each operation of a point at coordinates -/

/-- An adjacency block times a 10000-row matrix, into a zero accumulator. -/
theorem adjDot_apply (a : FVec Ideal S80x10000 .f32) (x : FVec Ideal S10000x128 .f32) (p : Fin 80) (q : Fin 128) :
    matmul dot_S80x10000_S10000x128_S80x128_1_0_0_1_n_n none a x (constant (F := Ideal) S80x128 .f32 0x00000000#32) (ix2 p q)
      = ∑ l : Fin 10000, a (ix2 p l) * x (ix2 l q) :=
  LibColumnBlocks.matmul_zero_apply dot_S80x10000_S10000x128_S80x128_1_0_0_1_n_n rfl rfl rfl rfl adjDot_l0 adjDot_r1 a x p q none

/-- An 80-row block times a 128 × 128 matrix, into a zero accumulator. -/
theorem wDot_apply (a : FVec Ideal S80x128 .f32) (w : FVec Ideal S128x128 .f32) (p : Fin 80) (q : Fin 128) :
    matmul dot_S80x128_S128x128_S80x128_1_0_0_1_n_n none a w (constant (F := Ideal) S80x128 .f32 0x00000000#32) (ix2 p q)
      = ∑ k : Fin 128, a (ix2 p k) * w (ix2 k q) :=
  LibColumnBlocks.matmul_zero_apply dot_S80x128_S128x128_S80x128_1_0_0_1_n_n rfl rfl rfl rfl wDot_l0 wDot_r1 a w p q none

/-- The row sums of an adjacency block: a sum over the lane axis from the zero word. -/
theorem rowSum_apply (a : FVec Ideal S80x10000 .f32) (hφ : FKind.Formats .f32)
    (hacc : (0x00000000#32 : BitVec 32) = 0x00000000#32) (p : Fin 80) :
    multiReduction .add [1] S80 a 0x00000000#32 reduces_S80x10000_S80 hφ hacc (ix1 p)
      = ∑ l : Fin 10000, a (ix2 p l) :=
  LibRowOps.sum_last2 a reduces_S80x10000_S80 hφ hacc p

/-- The row sums kept as a column. -/
theorem column_apply (s : FVec Ideal S80 .f32) (p : Fin 80) (z : Fin 1) :
    shapeCast S80x1 s shapeCasts_S80_S80x1 (ix2 p z) = s (ix1 p) :=
  LibRowOps.cast_a_a1 s shapeCasts_S80_S80x1 p z

/-- A column stretched over the lanes. -/
theorem lanes_apply (s : FVec Ideal S80x1 .f32) (p : Fin 80) (q : Fin 128) :
    broadcastTo S80x128 s broadcasts_S80x1_S80x128 (ix2 p q) = s (ix2 p 0) :=
  LibRowOps.bcast_a1_ab s broadcasts_S80x1_S80x128 p q

/-- A row stretched over the block's rows. -/
theorem rows_apply (b : FVec Ideal S1x128 .f32) (p : Fin 80) (q : Fin 128) :
    broadcastTo S80x128 b broadcasts_S1x128_S80x128 (ix2 p q) = b (ix2 0 q) :=
  LibRowOps.bcast_1b_ab b broadcasts_S1x128_S80x128 p q

/-! ## The two points -/

/-- What a point of the first pass stores, at `(p, q)`. -/
theorem pass1_apply (x0 : FVec Ideal S80x10000 .f32) (x1 : FVec Ideal S10000x128 .f32) (x5 : FVec Ideal S128x128 .f32)
    (x8 : FVec Ideal S1x128 .f32) (x16 : FVec Ideal S128x128 .f32) (x19 : FVec Ideal S1x128 .f32) (p : Fin 80) (q : Fin 128) :
    k0_pay1 (F := Ideal) x0 x1 x5 x8 x16 x19 (ix2 p q) = feat x0 x1 x5 x8 x16 x19 p q := by
  unfold k0_pay1 feat pre
  dsimp only
  simp only [addf_apply, mulf_apply, maximumf_apply, broadcast_apply, shapeCast_self, adjDot_apply, wDot_apply,
    column_apply, lanes_apply, rows_apply]
  refine congrArg (· + x19 (ix2 0 q)) (Finset.sum_congr rfl fun k _ => ?_)
  exact congrArg (fun s : EReal => max ((∑ j : Fin 128, (∑ l : Fin 10000, x0 (ix2 p l) * x1 (ix2 l j)) * x5 (ix2 j k))
    + s * x8 (ix2 0 k)) (Ideal.ofBits .f32 0x00000000#32) * x16 (ix2 k q)) (rowSum_apply x0 _ _ p)

/-- What a point of the second pass stores, at `(p, q)`. -/
theorem pass2_apply (x0 : FVec Ideal S80x10000 .f32) (x1 : FVec Ideal S10000x128 .f32) (p : Fin 80) (q : Fin 128) :
    k1_pay1 (F := Ideal) x0 x1 (ix2 p q) = agg x0 x1 p q := by
  unfold k1_pay1 agg
  simp only [shapeCast_self, adjDot_apply]

end Cert.KernelIdeal.Tiles

end
-- ==== Proof.Pass1.lean ====
/-
  The first pass, from blocks to the array.

  The pass runs over 125 grid points. At point `t` the adjacency window holds rows `80 t … 80 t + 79` (all 10000
  columns), every other input window holds its whole array, and the output window writes back rows `80 t … 80 t + 79`
  of the 10000 × 128 feature array. So what point `t` writes back is block `t` of ONE matrix — `Gcn.featArr` of the
  arrays as the pass finds them — and the 125 blocks tile the array: after the pass the array is that matrix.
  Everything is stated at arbitrary entry contents `V`.
-/
import proofs.«172992_g73469710566064_cont_sun_m_849_4_alg».proof.Proof.Gen.KernelIdeal.Frame
import proofs.«172992_g73469710566064_cont_sun_m_849_4_alg».proof.Proof.Tiles
import Idealize.ShloMosaic.Lib.Pipeline.Value

set_option maxRecDepth 16384

noncomputable section

namespace Cert.KernelIdeal.Pass1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the adjacency and output windows move one block of rows per point, every other
    window stays at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 125 := lt_of_lt_of_eq t.isLt N_0

/-! ## The input blocks -/

/-- Row `p` of the adjacency block at point `t` is row `80 t + p` of the adjacency. -/
theorem adj_row (c : Dev nD) (t : Fin cfg0.N) (p : Fin 80) (hr : 80 * t.val + p.val < 10000) (l : Fin 10000) :
    iblk0 V c 0 t (ix2 p l) = V c main_arg1 (ix2 (⟨80 * t.val + p.val, hr⟩ : Fin 10000) l) := by
  show V c main_arg1 (((cfg0.win 0).blk t).view.emb (ix2 p l)) = _
  refine congrArg _ ?_
  obtain ⟨e00, e01, -⟩ := index_maps t
  funext a; apply Fin.ext
  match a with
  | ⟨0, _⟩ => show win0_0.index t (0 : Fin 2) * 80 + 1 * p.val = 80 * t.val + p.val; omega
  | ⟨1, _⟩ => show win0_0.index t (1 : Fin 2) * 10000 + 1 * l.val = l.val; omega

/-- The feature window's block is the whole feature array. -/
theorem whole1 (c : Dev nD) (t : Fin cfg0.N) (y : S10000x128.Idx) : iblk0 V c 1 t y = V c main_arg0 y := by
  show V c main_arg0 (((cfg0.win 1).blk t).view.emb y) = _
  refine congrArg _ ?_
  obtain ⟨-, -, e0, e1, -⟩ := index_maps t
  funext a; apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The first weight window's block is the whole transposed weight array. -/
theorem whole2 (c : Dev nD) (t : Fin cfg0.N) (y : S128x128.Idx) : iblk0 V c 2 t y = V c main_v0 y := by
  show V c main_v0 (((cfg0.win 2).blk t).view.emb y) = _
  refine congrArg _ ?_
  obtain ⟨-, -, -, -, e0, e1, -⟩ := index_maps t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first bias window's block is the whole bias row. -/
theorem whole3 (c : Dev nD) (t : Fin cfg0.N) (y : S1x128.Idx) : iblk0 V c 3 t y = V c main_v2 y := by
  show V c main_v2 (((cfg0.win 3).blk t).view.emb y) = _
  refine congrArg _ ?_
  obtain ⟨-, -, -, -, -, -, e0, e1, -⟩ := index_maps t
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weight window's block is the whole transposed weight array. -/
theorem whole4 (c : Dev nD) (t : Fin cfg0.N) (y : S128x128.Idx) : iblk0 V c 4 t y = V c main_v1 y := by
  show V c main_v1 (((cfg0.win 4).blk t).view.emb y) = _
  refine congrArg _ ?_
  obtain ⟨-, -, -, -, -, -, -, -, e0, e1, -⟩ := index_maps t
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The second bias window's block is the whole bias row. -/
theorem whole5 (c : Dev nD) (t : Fin cfg0.N) (y : S1x128.Idx) : iblk0 V c 5 t y = V c main_v3 y := by
  show V c main_v3 (((cfg0.win 5).blk t).view.emb y) = _
  refine congrArg _ ?_
  obtain ⟨-, -, -, -, -, -, -, -, -, -, e0, e1, -⟩ := index_maps t
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-! ## The output block -/

/-- Entry `(p, q)` of the output block at point `t` sits at `(80 t + p, q)` of the array. -/
theorem out_emb (t : Fin cfg0.N) (p : Fin 80) (q : Fin 128) (hr : 80 * t.val + p.val < 10000) :
    ((cfg0.win 6).blk t).view.emb (ix2 p q) = (ix2 (⟨80 * t.val + p.val, hr⟩ : Fin 10000) q : S10000x128.Idx) := by
  obtain ⟨-, -, -, -, -, -, -, -, -, -, -, -, e0, e1⟩ := index_maps t
  funext a; apply Fin.ext
  match a with
  | ⟨0, _⟩ => show win0_6.index t (0 : Fin 2) * 80 + 1 * p.val = 80 * t.val + p.val; omega
  | ⟨1, _⟩ => show win0_6.index t (1 : Fin 2) * 128 + 1 * q.val = q.val; omega

/-- What point `t` writes back is block `t` of `featArr` of the arrays as the pass finds them. -/
theorem flushed_eq (c : Dev nD) (t : Fin cfg0.N) :
    (dat0 V c).flushed 6 t = ((cfg0.win 6).blk t).view.read (Elt Ideal)
      (featArr (V c main_arg1) (V c main_arg0) (V c main_v0) (V c main_v2) (V c main_v1) (V c main_v3)) := by
  show (cfg0.win 6).cut (grid0.coords t) ((dat0 V c).after 6 t) = _
  rw [after0_6]
  unfold out0_6
  rw [View.canon_unit_zero zero_offsets]
  simp only [View.ld_unit_zero (S := S80x10000) zero_offsets, View.ld_unit_zero (S := S10000x128) zero_offsets,
    View.ld_unit_zero (S := S128x128) zero_offsets, View.ld_unit_zero (S := S1x128) zero_offsets]
  funext j
  obtain ⟨p, q, rfl⟩ : ∃ (p : Fin 80) (q : Fin 128), j = ix2 p q := ⟨j 0, j 1, eq_ix2 j⟩
  have ht := point_lt t
  have hr : 80 * t.val + p.val < 10000 := by have := p.isLt; omega
  show k0_pay1 (iblk0 V c 0 t) (iblk0 V c 1 t) (iblk0 V c 2 t) (iblk0 V c 3 t) (iblk0 V c 4 t) (iblk0 V c 5 t) (ix2 p q)
    = featArr (V c main_arg1) (V c main_arg0) (V c main_v0) (V c main_v2) (V c main_v1) (V c main_v3)
        (((cfg0.win 6).blk t).view.emb (ix2 p q))
  rw [out_emb t p q hr]
  refine (Tiles.pass1_apply (iblk0 V c 0 t) (iblk0 V c 1 t) (iblk0 V c 2 t) (iblk0 V c 3 t) (iblk0 V c 4 t) (iblk0 V c 5 t) p q).trans ?_
  exact feat_block (iblk0 V c 0 t) (iblk0 V c 1 t) (iblk0 V c 2 t) (iblk0 V c 3 t) (iblk0 V c 4 t) (iblk0 V c 5 t)
    (V c main_arg1) (V c main_arg0) (V c main_v0) (V c main_v2) (V c main_v1) (V c main_v3) p q ⟨80 * t.val + p.val, hr⟩
    (adj_row V c t p hr) (whole1 V c t) (whole2 V c t) (whole3 V c t) (whole4 V c t) (whole5 V c t)

/-! ## The blocks tile the array -/

/-- An index of the array is in point `t`'s block iff each coordinate is in the block's range on its axis. -/
theorem mem_blk (t : Fin cfg0.N) (i : S10000x128.Idx) :
    i ∈ ((cfg0.win 6).blk t).view.set ↔ ∀ a : Fin 2, win0_6.index t a * S80x128.size a ≤ (i a).val
      ∧ (i a).val < win0_6.index t a * S80x128.size a + S80x128.size a := by
  show i ∈ ((View.whole main_v4).slice (win0_6.rect t)).set ↔ _
  rw [View.set_slice_whole, Rect.mem_set_unit]
  exact Iff.rfl

/-- Row `r` is written back by point `r / 80`. -/
theorem cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 125 := N_0
  have hlt : (i 0).val / 80 < cfg0.N := by rw [hN]; omega
  obtain ⟨-, -, -, -, -, -, -, -, -, -, -, -, e0, e1⟩ := index_maps ⟨(i 0).val / 80, hlt⟩
  refine ⟨⟨(i 0).val / 80, hlt⟩, flush0_6 _, ?_⟩
  rw [mem_blk]
  intro a
  match a with
  | ⟨0, _⟩ =>
    show win0_6.index ⟨(i 0).val / 80, hlt⟩ (0 : Fin 2) * 80 ≤ (i 0).val
      ∧ (i 0).val < win0_6.index ⟨(i 0).val / 80, hlt⟩ (0 : Fin 2) * 80 + 80
    rw [e0]; show (i 0).val / 80 * 80 ≤ (i 0).val ∧ (i 0).val < (i 0).val / 80 * 80 + 80; omega
  | ⟨1, _⟩ =>
    show win0_6.index ⟨(i 0).val / 80, hlt⟩ (1 : Fin 2) * 128 ≤ (i 1).val
      ∧ (i 1).val < win0_6.index ⟨(i 0).val / 80, hlt⟩ (1 : Fin 2) * 128 + 128
    rw [e1]; omega

/-- After the pass the feature array is `featArr` of the arrays as the pass found them. -/
theorem final (c : Dev nD) :
    (dat0 V c).arrAt 6 cfg0.N
      = featArr (V c main_arg1) (V c main_arg0) (V c main_v0) (V c main_v2) (V c main_v1) (V c main_v3) :=
  (dat0 V c).arrAt_eq_of_cover 6 _ (fun t _ => flushed_eq V c t) cover

end Cert.KernelIdeal.Pass1

end
-- ==== Proof.Pass2.lean ====
/-
  The second pass, from blocks to the array.

  Again 125 grid points: at point `t` the adjacency window holds rows `80 t … 80 t + 79`, the feature window holds
  the whole 10000 × 128 feature array, and the output window writes back rows `80 t … 80 t + 79` of the result. What
  point `t` writes back is block `t` of `Gcn.aggArr` of the adjacency and the features as the pass finds them, and
  the blocks tile the result: after the pass the result is that matrix. Stated at arbitrary entry contents `V`.
-/
import proofs.«172992_g73469710566064_cont_sun_m_849_4_alg».proof.Proof.Gen.KernelIdeal.Frame
import proofs.«172992_g73469710566064_cont_sun_m_849_4_alg».proof.Proof.Tiles
import Idealize.ShloMosaic.Lib.Pipeline.Value

set_option maxRecDepth 16384

noncomputable section

namespace Cert.KernelIdeal.Pass2

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the adjacency and output windows move one block of rows per point, the feature
    window stays at block (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 125 := lt_of_lt_of_eq t.isLt N_1

/-! ## The input blocks -/

/-- Row `p` of the adjacency block at point `t` is row `80 t + p` of the adjacency. -/
theorem adj_row (c : Dev nD) (t : Fin cfg1.N) (p : Fin 80) (hr : 80 * t.val + p.val < 10000) (l : Fin 10000) :
    iblk1 V c 0 t (ix2 p l) = V c main_arg1 (ix2 (⟨80 * t.val + p.val, hr⟩ : Fin 10000) l) := by
  show V c main_arg1 (((cfg1.win 0).blk t).view.emb (ix2 p l)) = _
  refine congrArg _ ?_
  obtain ⟨e00, e01, -⟩ := index_maps t
  funext a; apply Fin.ext
  match a with
  | ⟨0, _⟩ => show win1_0.index t (0 : Fin 2) * 80 + 1 * p.val = 80 * t.val + p.val; omega
  | ⟨1, _⟩ => show win1_0.index t (1 : Fin 2) * 10000 + 1 * l.val = l.val; omega

/-- The feature window's block is the whole feature array. -/
theorem whole1 (c : Dev nD) (t : Fin cfg1.N) (y : S10000x128.Idx) : iblk1 V c 1 t y = V c main_v4 y := by
  show V c main_v4 (((cfg1.win 1).blk t).view.emb y) = _
  refine congrArg _ ?_
  obtain ⟨-, -, e0, e1, -⟩ := index_maps t
  funext a; apply Fin.ext
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-! ## The output block -/

/-- Entry `(p, q)` of the output block at point `t` sits at `(80 t + p, q)` of the result. -/
theorem out_emb (t : Fin cfg1.N) (p : Fin 80) (q : Fin 128) (hr : 80 * t.val + p.val < 10000) :
    ((cfg1.win 2).blk t).view.emb (ix2 p q) = (ix2 (⟨80 * t.val + p.val, hr⟩ : Fin 10000) q : S10000x128.Idx) := by
  obtain ⟨-, -, -, -, e0, e1⟩ := index_maps t
  funext a; apply Fin.ext
  match a with
  | ⟨0, _⟩ => show win1_2.index t (0 : Fin 2) * 80 + 1 * p.val = 80 * t.val + p.val; omega
  | ⟨1, _⟩ => show win1_2.index t (1 : Fin 2) * 128 + 1 * q.val = q.val; omega

/-- What point `t` writes back is block `t` of `aggArr` of the adjacency and the features as the pass finds them. -/
theorem flushed_eq (c : Dev nD) (t : Fin cfg1.N) :
    (dat1 V c).flushed 2 t = ((cfg1.win 2).blk t).view.read (Elt Ideal) (aggArr (V c main_arg1) (V c main_v4)) := by
  show (cfg1.win 2).cut (grid1.coords t) ((dat1 V c).after 2 t) = _
  rw [after1_2]
  unfold out1_2
  rw [View.canon_unit_zero zero_offsets]
  simp only [View.ld_unit_zero (S := S80x10000) zero_offsets, View.ld_unit_zero (S := S10000x128) zero_offsets]
  funext j
  obtain ⟨p, q, rfl⟩ : ∃ (p : Fin 80) (q : Fin 128), j = ix2 p q := ⟨j 0, j 1, eq_ix2 j⟩
  have ht := point_lt t
  have hr : 80 * t.val + p.val < 10000 := by have := p.isLt; omega
  show k1_pay1 (iblk1 V c 0 t) (iblk1 V c 1 t) (ix2 p q)
    = aggArr (V c main_arg1) (V c main_v4) (((cfg1.win 2).blk t).view.emb (ix2 p q))
  rw [out_emb t p q hr]
  refine (Tiles.pass2_apply (iblk1 V c 0 t) (iblk1 V c 1 t) p q).trans ?_
  exact agg_block (iblk1 V c 0 t) (iblk1 V c 1 t) (V c main_arg1) (V c main_v4) p q ⟨80 * t.val + p.val, hr⟩
    (adj_row V c t p hr) (whole1 V c t)

/-! ## The blocks tile the result -/

/-- An index of the result is in point `t`'s block iff each coordinate is in the block's range on its axis. -/
theorem mem_blk (t : Fin cfg1.N) (i : S10000x128.Idx) :
    i ∈ ((cfg1.win 2).blk t).view.set ↔ ∀ a : Fin 2, win1_2.index t a * S80x128.size a ≤ (i a).val
      ∧ (i a).val < win1_2.index t a * S80x128.size a + S80x128.size a := by
  show i ∈ ((View.whole main_v5).slice (win1_2.rect t)).set ↔ _
  rw [View.set_slice_whole, Rect.mem_set_unit]
  exact Iff.rfl

/-- Row `r` is written back by point `r / 80`. -/
theorem cover (i : S10000x128.Idx) :
    ∃ t : Fin cfg1.N, (cfg1.win 2).flush t = true ∧ i ∈ ((cfg1.win 2).blk t).view.set := by
  have hi0 : (i 0).val < 10000 := (i 0).isLt
  have hi1 : (i 1).val < 128 := (i 1).isLt
  have hN : cfg1.N = 125 := N_1
  have hlt : (i 0).val / 80 < cfg1.N := by rw [hN]; omega
  obtain ⟨-, -, -, -, e0, e1⟩ := index_maps ⟨(i 0).val / 80, hlt⟩
  refine ⟨⟨(i 0).val / 80, hlt⟩, flush1_2 _, ?_⟩
  rw [mem_blk]
  intro a
  match a with
  | ⟨0, _⟩ =>
    show win1_2.index ⟨(i 0).val / 80, hlt⟩ (0 : Fin 2) * 80 ≤ (i 0).val
      ∧ (i 0).val < win1_2.index ⟨(i 0).val / 80, hlt⟩ (0 : Fin 2) * 80 + 80
    rw [e0]; show (i 0).val / 80 * 80 ≤ (i 0).val ∧ (i 0).val < (i 0).val / 80 * 80 + 80; omega
  | ⟨1, _⟩ =>
    show win1_2.index ⟨(i 0).val / 80, hlt⟩ (1 : Fin 2) * 128 ≤ (i 1).val
      ∧ (i 1).val < win1_2.index ⟨(i 0).val / 80, hlt⟩ (1 : Fin 2) * 128 + 128
    rw [e1]; omega

/-- After the pass the result is `aggArr` of the adjacency and the features as the pass found them. -/
theorem final (c : Dev nD) :
    (dat1 V c).arrAt 2 cfg1.N = aggArr (V c main_arg1) (V c main_v4) :=
  (dat1 V c).arrAt_eq_of_cover 2 _ (fun t _ => flushed_eq V c t) cover

end Cert.KernelIdeal.Pass2

end
-- ==== Proof.KernelValue.lean ====
/-
  The kernel program's result as one function of its arguments.

  The host stretch leaves the arguments alone and writes the two transposed weight matrices and the two biases recast
  as rows. The first pass then leaves `Gcn.featArr` of the adjacency, the features and those four in the
  intermediate buffer (`Pass1.final`), the adjacency untouched; the second pass leaves `Gcn.aggArr` of the
  adjacency and that intermediate array in the result (`Pass2.final`). Read back through the fold of buffer
  contents, the result is the second aggregation of the first pass's features, over the launch contents.
-/
import proofs.«172992_g73469710566064_cont_sun_m_849_4_alg».proof.Proof.KernelRun
import proofs.«172992_g73469710566064_cont_sun_m_849_4_alg».proof.Proof.Pass1
import proofs.«172992_g73469710566064_cont_sun_m_849_4_alg».proof.Proof.Pass2
import Idealize.ShloMosaic.Lib.StableHlo.Run

set_option maxRecDepth 16384

noncomputable section

namespace Cert.KernelIdeal.Passes

open Cert.KernelIdeal Cert.KernelIdeal.Gen
open Idealize.ShloMosaic Idealize.ShloMosaic.TcCoe Idealize.SL.Sem Idealize.ShloMosaic.StableHlo
open Idealize.ShloMosaic.ValueIdx Cert.Gcn
open Idealize.ShloMosaic.Pipeline (Dat)

variable (m : (ℓ : Loc nD τ sig) → Buf (Elt Ideal) ℓ) (ρ : Dev nD → PrngReg)

/-! ## After the host stretch -/

theorem host_arg0 (c : Dev nD) : V1 m ρ c main_arg0 = m ((c : Thread nD τ).loc main_arg0) := by
  show StableHlo.after hostOps0 (W0 m ρ c) (Proc.devRef .tc main_arg0) = _
  after_results <;> rfl

theorem host_arg1 (c : Dev nD) : V1 m ρ c main_arg1 = m ((c : Thread nD τ).loc main_arg1) := by
  show StableHlo.after hostOps0 (W0 m ρ c) (Proc.devRef .tc main_arg1) = _
  after_results <;> rfl

/-- The first weights, transposed. -/
theorem host_w0t (c : Dev nD) :
    V1 m ρ c main_v0 = transpose S128x128 [1, 0] (m ((c : Thread nD τ).loc main_arg2)) transposes_S128x128_S128x128_1_0 := by
  show StableHlo.after hostOps0 (W0 m ρ c) (Proc.devRef .tc main_v0) = _
  after_results <;> rfl

/-- The second weights, transposed. -/
theorem host_w1t (c : Dev nD) :
    V1 m ρ c main_v1 = transpose S128x128 [1, 0] (m ((c : Thread nD τ).loc main_arg4)) transposes_S128x128_S128x128_1_0 := by
  show StableHlo.after hostOps0 (W0 m ρ c) (Proc.devRef .tc main_v1) = _
  after_results <;> rfl

/-- The first bias as a row. -/
theorem host_b0 (c : Dev nD) :
    V1 m ρ c main_v2 = shapeCast S1x128 (m ((c : Thread nD τ).loc main_arg3)) shapeCasts_S128_S1x128 := by
  show StableHlo.after hostOps0 (W0 m ρ c) (Proc.devRef .tc main_v2) = _
  after_results <;> rfl

/-- The second bias as a row. -/
theorem host_b1 (c : Dev nD) :
    V1 m ρ c main_v3 = shapeCast S1x128 (m ((c : Thread nD τ).loc main_arg5)) shapeCasts_S128_S1x128 := by
  show StableHlo.after hostOps0 (W0 m ρ c) (Proc.devRef .tc main_v3) = _
  after_results <;> rfl

/-! ## After the first pass -/

/-- The adjacency is as launched: the pass stages it and never writes it back. -/
theorem pass1_adj (c : Dev nD) : V2 m ρ c main_arg1 = m ((c : Thread nD τ).loc main_arg1) :=
  (W2_arr m ρ c 0).trans (((dat0 (V1 m ρ) c).arrAt_in 0 rfl _).trans ((A_eq0 (V1 m ρ) c 0).trans (host_arg1 m ρ c)))

/-- The intermediate buffer holds the second-layer features. -/
theorem pass1_features (c : Dev nD) :
    V2 m ρ c main_v4 = featArr (m ((c : Thread nD τ).loc main_arg1)) (m ((c : Thread nD τ).loc main_arg0))
      (transpose S128x128 [1, 0] (m ((c : Thread nD τ).loc main_arg2)) transposes_S128x128_S128x128_1_0)
      (shapeCast S1x128 (m ((c : Thread nD τ).loc main_arg3)) shapeCasts_S128_S1x128)
      (transpose S128x128 [1, 0] (m ((c : Thread nD τ).loc main_arg4)) transposes_S128x128_S128x128_1_0)
      (shapeCast S1x128 (m ((c : Thread nD τ).loc main_arg5)) shapeCasts_S128_S1x128) := by
  refine (W2_arr m ρ c 6).trans ((Pass1.final (V1 m ρ) c).trans ?_)
  rw [host_arg1, host_arg0, host_w0t, host_b0, host_w1t, host_b1]

/-! ## After the second pass -/

/-- The result buffer holds the aggregation of the first pass's features. -/
theorem result_value (c : Dev nD) :
    W3 m ρ c (Proc.devRef .tc main_v5) = aggArr (m ((c : Thread nD τ).loc main_arg1))
      (featArr (m ((c : Thread nD τ).loc main_arg1)) (m ((c : Thread nD τ).loc main_arg0))
        (transpose S128x128 [1, 0] (m ((c : Thread nD τ).loc main_arg2)) transposes_S128x128_S128x128_1_0)
        (shapeCast S1x128 (m ((c : Thread nD τ).loc main_arg3)) shapeCasts_S128_S1x128)
        (transpose S128x128 [1, 0] (m ((c : Thread nD τ).loc main_arg4)) transposes_S128x128_S128x128_1_0)
        (shapeCast S1x128 (m ((c : Thread nD τ).loc main_arg5)) shapeCasts_S128_S1x128)) := by
  refine (W3_arr m ρ c 2).trans ((Pass2.final (V2 m ρ) c).trans ?_)
  rw [pass1_adj, pass1_features]

/-- The run with the result at that function of the launch contents, the arguments unchanged. -/
theorem run_value : θ_run defs (onTc (τ := τ) (main (F := Ideal))) ⟨m, fun _ => 0, ρ⟩ (fun r => ∀ c : Dev nD,
      r.2.mem ((c.tc : Thread nD τ).loc main_v5) = aggArr (m ((c : Thread nD τ).loc main_arg1))
        (featArr (m ((c : Thread nD τ).loc main_arg1)) (m ((c : Thread nD τ).loc main_arg0))
          (transpose S128x128 [1, 0] (m ((c : Thread nD τ).loc main_arg2)) transposes_S128x128_S128x128_1_0)
          (shapeCast S1x128 (m ((c : Thread nD τ).loc main_arg3)) shapeCasts_S128_S1x128)
          (transpose S128x128 [1, 0] (m ((c : Thread nD τ).loc main_arg4)) transposes_S128x128_S128x128_1_0)
          (shapeCast S1x128 (m ((c : Thread nD τ).loc main_arg5)) shapeCasts_S128_S1x128))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (run_result m ρ)

end Cert.KernelIdeal.Passes

end
-- ==== Proof.LibRankFactor.lean ====
/-
  A sum over a rank index of (a row contracted with a factor's column) times the other factor's entry is the row
  contracted with the product of the two factors: on the extended reals, for entries that are all finite,

      ∑ k, (∑ i, a i * v i k) * u k  =  ∑ i, a i * ∑ k, u k * v i k.

  Distributivity and the exchange of the two sums are laws of the reals; they fail at the infinities, so every entry
  is first written as the coercion of a real number, the identity is proved there, and the coercion is pushed back
  through products and finite sums.
-/
import Mathlib.Data.EReal.Operations
import Mathlib.Algebra.BigOperators.Ring.Finset
import Mathlib.Algebra.BigOperators.Group.Finset.Sigma
import Mathlib.Tactic.Ring

namespace RankFactor

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of extended reals none of which is infinite is the coercion of a family of reals. -/
theorem exists_real {α : Type*} (f : α → EReal) (h : ∀ a, f a ≠ ⊤ ∧ f a ≠ ⊥) :
    ∃ g : α → ℝ, ∀ a, f a = (g a : EReal) :=
  ⟨fun a => (f a).toReal, fun a => (EReal.coe_toReal (h a).1 (h a).2).symm⟩

/-- An extended real whose absolute value `max x (-x)` is below `⊤` is neither infinity. -/
theorem finite_of_abs_lt_top {x : EReal} (h : max x (-x) < ⊤) : x ≠ ⊤ ∧ x ≠ ⊥ := by
  constructor
  · rintro rfl
    exact absurd h (by simp)
  · rintro rfl
    exact absurd h (by simp)

/-- The identity on the reals: expand both sides into the double sum of `a i * v i k * u k`. -/
theorem real_factor {ι κ : Type*} [Fintype ι] [Fintype κ] (a : ι → ℝ) (v : ι → κ → ℝ) (u : κ → ℝ) :
    ∑ k, (∑ i, a i * v i k) * u k = ∑ i, a i * ∑ k, u k * v i k := by
  simp only [Finset.sum_mul, Finset.mul_sum]
  rw [Finset.sum_comm]
  exact Finset.sum_congr rfl fun i _ => Finset.sum_congr rfl fun k _ => by ring

/-- The identity on the extended reals, for finite entries. -/
theorem factor {ι κ : Type*} [Fintype ι] [Fintype κ] (a : ι → EReal) (v : ι → κ → EReal) (u : κ → EReal)
    (ha : ∀ i, a i ≠ ⊤ ∧ a i ≠ ⊥) (hv : ∀ i k, v i k ≠ ⊤ ∧ v i k ≠ ⊥) (hu : ∀ k, u k ≠ ⊤ ∧ u k ≠ ⊥) :
    ∑ k, (∑ i, a i * v i k) * u k = ∑ i, a i * ∑ k, u k * v i k := by
  obtain ⟨a', ha'⟩ := exists_real a ha
  obtain ⟨v', hv'⟩ := exists_real (fun p : ι × κ => v p.1 p.2) (fun p => hv p.1 p.2)
  obtain ⟨u', hu'⟩ := exists_real u hu
  have hv'' : ∀ i k, v i k = (v' (i, k) : EReal) := fun i k => hv' (i, k)
  calc ∑ k, (∑ i, a i * v i k) * u k
      = ∑ k, (((∑ i, a' i * v' (i, k)) * u' k : ℝ) : EReal) :=
        Finset.sum_congr rfl fun k _ => by
          rw [EReal.coe_mul, coe_sum, hu' k]
          exact congrArg (· * (u' k : EReal)) (Finset.sum_congr rfl fun i _ => by rw [ha' i, hv'' i k, EReal.coe_mul])
    _ = ((∑ k, (∑ i, a' i * v' (i, k)) * u' k : ℝ) : EReal) := (coe_sum _ _).symm
    _ = ((∑ i, a' i * ∑ k, u' k * v' (i, k) : ℝ) : EReal) :=
        congrArg _ (real_factor a' (fun i k => v' (i, k)) u')
    _ = ∑ i, ((a' i * ∑ k, u' k * v' (i, k) : ℝ) : EReal) := coe_sum _ _
    _ = ∑ i, a i * ∑ k, u k * v i k :=
        Finset.sum_congr rfl fun i _ => by
          rw [EReal.coe_mul, coe_sum, ha' i]
          exact congrArg ((a' i : EReal) * ·) (Finset.sum_congr rfl fun k _ => by rw [hu' k, hv'' i k, EReal.coe_mul])

end RankFactor
-- ==== Proof.LibAffineRows.lean ====
/-
  A row contracted with an affine image of a matrix: on the extended reals, for entries that are all finite,

      ∑ i, a i * (∑ k, v i k * u k + b)  =  ∑ k, (∑ i, a i * v i k) * u k + (∑ i, a i) * b.

  On the left the affine map `x ↦ x · u + b` is applied to every row `v i` and the results are combined with the
  weights `a`; on the right the rows are combined first, the linear part applied once, and the constant `b` weighted
  by the sum of the weights. The identity needs distributivity and the exchange of two finite sums, which are laws of
  the reals and fail at the infinities: every entry is written as the coercion of a real number, the identity is
  proved there, and the coercion is pushed back through products, sums and finite sums.
-/
import proofs.«172992_g73469710566064_cont_sun_m_849_4_alg».proof.Proof.LibRankFactor

namespace AffineRows

/-- The identity on the reals: both sides expand into the double sum of `a i * v i k * u k` plus `∑ i, a i * b`. -/
theorem real_law {ι κ : Type*} [Fintype ι] [Fintype κ] (a : ι → ℝ) (v : ι → κ → ℝ) (u : κ → ℝ) (b : ℝ) :
    ∑ i, a i * (∑ k, v i k * u k + b) = ∑ k, (∑ i, a i * v i k) * u k + (∑ i, a i) * b := by
  have h1 : ∀ i, a i * (∑ k, v i k * u k + b) = ∑ k, a i * v i k * u k + a i * b := fun i => by
    rw [mul_add, Finset.mul_sum]
    exact congrArg (· + a i * b) (Finset.sum_congr rfl fun k _ => by ring)
  have h2 : ∀ k, (∑ i, a i * v i k) * u k = ∑ i, a i * v i k * u k := fun k => Finset.sum_mul _ _ _
  rw [Finset.sum_congr rfl fun i _ => h1 i, Finset.sum_congr rfl fun k _ => h2 k, Finset.sum_add_distrib,
    Finset.sum_mul, Finset.sum_comm]

/-- The identity on the extended reals, for finite entries. -/
theorem law {ι κ : Type*} [Fintype ι] [Fintype κ] (a : ι → EReal) (v : ι → κ → EReal) (u : κ → EReal) (b : EReal)
    (ha : ∀ i, a i ≠ ⊤ ∧ a i ≠ ⊥) (hv : ∀ i k, v i k ≠ ⊤ ∧ v i k ≠ ⊥) (hu : ∀ k, u k ≠ ⊤ ∧ u k ≠ ⊥)
    (hb : b ≠ ⊤ ∧ b ≠ ⊥) :
    ∑ i, a i * (∑ k, v i k * u k + b) = ∑ k, (∑ i, a i * v i k) * u k + (∑ i, a i) * b := by
  obtain ⟨a', ha'⟩ := RankFactor.exists_real a ha
  obtain ⟨v', hv'⟩ := RankFactor.exists_real (fun p : ι × κ => v p.1 p.2) (fun p => hv p.1 p.2)
  obtain ⟨u', hu'⟩ := RankFactor.exists_real u hu
  obtain ⟨b', hb'⟩ := RankFactor.exists_real (fun _ : Unit => b) (fun _ => hb)
  have hv'' : ∀ i k, v i k = (v' (i, k) : EReal) := fun i k => hv' (i, k)
  have hb'' : b = (b' () : EReal) := hb' ()
  calc ∑ i, a i * (∑ k, v i k * u k + b)
      = ∑ i, ((a' i * (∑ k, v' (i, k) * u' k + b' ()) : ℝ) : EReal) :=
        Finset.sum_congr rfl fun i _ => by
          rw [EReal.coe_mul, EReal.coe_add, RankFactor.coe_sum, ha' i, hb'']
          exact congrArg (fun s => (a' i : EReal) * (s + (b' () : EReal)))
            (Finset.sum_congr rfl fun k _ => by rw [hv'' i k, hu' k, EReal.coe_mul])
    _ = ((∑ i, a' i * (∑ k, v' (i, k) * u' k + b' ()) : ℝ) : EReal) := (RankFactor.coe_sum _ _).symm
    _ = ((∑ k, (∑ i, a' i * v' (i, k)) * u' k + (∑ i, a' i) * b' () : ℝ) : EReal) :=
        congrArg _ (real_law a' (fun i k => v' (i, k)) u' (b' ()))
    _ = ∑ k, (((∑ i, a' i * v' (i, k)) * u' k : ℝ) : EReal) + ((∑ i, a' i : ℝ) : EReal) * (b' () : EReal) := by
        rw [EReal.coe_add, RankFactor.coe_sum, EReal.coe_mul]
    _ = ∑ k, (∑ i, a i * v i k) * u k + (∑ i, a i) * b := by
        rw [RankFactor.coe_sum, hb'']
        refine congrArg₂ (· + ·) (Finset.sum_congr rfl fun k _ => ?_)
          (congrArg (· * (b' () : EReal)) (Finset.sum_congr rfl fun i _ => (ha' i).symm))
        rw [EReal.coe_mul, RankFactor.coe_sum, hu' k]
        exact congrArg (· * (u' k : EReal)) (Finset.sum_congr rfl fun i _ => by rw [ha' i, hv'' i k, EReal.coe_mul])

end AffineRows
-- ==== Proof.RefValue.lean ====
/-
  The reference, stage by stage at coordinates, and its agreement with the two passes.

  The reference computes, with `A` the adjacency, `X` the features, `W0`, `W1` the weights and `b0`, `b1` the biases,

    H(i,k)   = ∑ j, X(i,j) · W0(k,j) + b0(k)            the first linear layer, node by node
    P(l,k)   = ∑ i, A(l,i) · H(i,k)                      aggregated
    Q(l,c)   = ∑ k, max (P(l,k)) 0 · W1(c,k) + b1(c)     rectified, through the second linear layer
    out(r,c) = ∑ l, A(r,l) · Q(l,c)                      aggregated again.

  The passes aggregate BEFORE the first linear layer: `Gcn.pre` is `∑ j, (∑ i, A(l,i) X(i,j)) · W0(k,j) + (∑ i, A(l,i)) · b0(k)`.
  The two agree when `A`, `X`, `W0` and `b0` have finite entries (`AffineRows.law`: distributivity and an exchange of
  sums, which hold on the reals); the rectifier, the second layer and the second aggregation are the same terms on
  both sides, so `W1`, `b1` may be anything. The transposed weights and the bias rows enter through what they
  hold at each coordinate (`hW0`, `hB0`, `hW1`, `hB1`).
-/
import proofs.«172992_g73469710566064_cont_sun_m_849_4_alg».proof.Proof.Gen.ReferenceIdeal.Read
import proofs.«172992_g73469710566064_cont_sun_m_849_4_alg».proof.Proof.Spec
import proofs.«172992_g73469710566064_cont_sun_m_849_4_alg».proof.Proof.LibAffineRows

noncomputable section

namespace Cert.ReferenceIdeal.RefValue

open Cert.ReferenceIdeal Cert.ReferenceIdeal.Gen Cert.ReferenceIdeal.Read Idealize.ShloMosaic Idealize.ShloMosaic.ValueIdx Cert.Gcn

variable (X : Mat 10000 128) (A : Mat 10000 10000) (W0 : Mat 128 128) (b0 : FVec Ideal S128 .f32)
  (W1 : Mat 128 128) (b1 : FVec Ideal S128 .f32)

/-! ## The read indices of each stage, at coordinates -/

theorem t0 (j k : Fin 128) : idx_main_v0 (ix2 j k) = ix2 k j :=
  funext fun a => by match a with | ⟨0, _⟩ => rfl | ⟨1, _⟩ => rfl
theorem l1 (i : Fin 10000) (k j : Fin 128) : lidx_main_v1 (ix2 i k) j = ix2 i j :=
  funext fun a => by match a with | ⟨0, _⟩ => rfl | ⟨1, _⟩ => rfl
theorem r1 (i : Fin 10000) (k j : Fin 128) : ridx_main_v1 (ix2 i k) j = ix2 j k :=
  funext fun a => by match a with | ⟨0, _⟩ => rfl | ⟨1, _⟩ => rfl
theorem b3 (i : Fin 10000) (k : Fin 128) : idx_main_v2 (idx_main_v3 (ix2 i k)) = ix1 k :=
  funext fun a => by match a with | ⟨0, _⟩ => rfl
theorem l5 (l : Fin 10000) (k : Fin 128) (i : Fin 10000) : lidx_main_v5 (ix2 l k) i = ix2 l i :=
  funext fun a => by match a with | ⟨0, _⟩ => rfl | ⟨1, _⟩ => rfl
theorem r5 (l : Fin 10000) (k : Fin 128) (i : Fin 10000) : ridx_main_v5 (ix2 l k) i = ix2 i k :=
  funext fun a => by match a with | ⟨0, _⟩ => rfl | ⟨1, _⟩ => rfl
theorem t7 (k c : Fin 128) : idx_main_v7 (ix2 k c) = ix2 c k :=
  funext fun a => by match a with | ⟨0, _⟩ => rfl | ⟨1, _⟩ => rfl
theorem l8 (l : Fin 10000) (c k : Fin 128) : lidx_main_v8 (ix2 l c) k = ix2 l k :=
  funext fun a => by match a with | ⟨0, _⟩ => rfl | ⟨1, _⟩ => rfl
theorem r8 (l : Fin 10000) (c k : Fin 128) : ridx_main_v8 (ix2 l c) k = ix2 k c :=
  funext fun a => by match a with | ⟨0, _⟩ => rfl | ⟨1, _⟩ => rfl
theorem b10 (l : Fin 10000) (c : Fin 128) : idx_main_v9 (idx_main_v10 (ix2 l c)) = ix1 c :=
  funext fun a => by match a with | ⟨0, _⟩ => rfl
theorem l12 (r : Fin 10000) (c : Fin 128) (l : Fin 10000) : lidx_main_v12 (ix2 r c) l = ix2 r l :=
  funext fun a => by match a with | ⟨0, _⟩ => rfl | ⟨1, _⟩ => rfl
theorem r12 (r : Fin 10000) (c : Fin 128) (l : Fin 10000) : ridx_main_v12 (ix2 r c) l = ix2 l c :=
  funext fun a => by match a with | ⟨0, _⟩ => rfl | ⟨1, _⟩ => rfl

/-! ## The stages -/

/-- The first linear layer at node `i`, unit `k`. -/
theorem linear0 (i : Fin 10000) (k : Fin 128) :
    val_main_v4 (F := Ideal) X W0 b0 (ix2 i k) = (∑ j : Fin 128, X (ix2 i j) * W0 (ix2 k j)) + b0 (ix1 k) := by
  rw [val_main_v4_apply, val_main_v1_apply, val_main_v3_apply, val_main_v2_apply, b3]
  refine congrArg (· + b0 (ix1 k)) (Finset.sum_congr rfl fun j _ => ?_)
  rw [l1, r1, val_main_v0_apply, t0]

/-- Its aggregation at `(l, k)`. -/
theorem aggregated0 (l : Fin 10000) (k : Fin 128) :
    val_main_v5 (F := Ideal) X A W0 b0 (ix2 l k)
      = ∑ i : Fin 10000, A (ix2 l i) * ((∑ j : Fin 128, X (ix2 i j) * W0 (ix2 k j)) + b0 (ix1 k)) := by
  rw [val_main_v5_apply]
  exact Finset.sum_congr rfl fun i _ => by rw [l5, r5, linear0]

/-- The rectified aggregation at `(l, k)`. -/
theorem rectified (l : Fin 10000) (k : Fin 128) :
    val_main_v6 (F := Ideal) X A W0 b0 (ix2 l k)
      = max (∑ i : Fin 10000, A (ix2 l i) * ((∑ j : Fin 128, X (ix2 i j) * W0 (ix2 k j)) + b0 (ix1 k)))
          (Ideal.ofBits .f32 0x00000000#32) := by
  rw [val_main_v6_apply, aggregated0, val_main_call0_v0_apply, val_main_call0_cst_apply]
  rfl

/-- The second linear layer at `(l, c)`. -/
theorem linear1 (l : Fin 10000) (c : Fin 128) :
    val_main_v11 (F := Ideal) X A W0 b0 W1 b1 (ix2 l c)
      = (∑ k : Fin 128, val_main_v6 (F := Ideal) X A W0 b0 (ix2 l k) * W1 (ix2 c k)) + b1 (ix1 c) := by
  rw [val_main_v11_apply, val_main_v8_apply, val_main_v10_apply, val_main_v9_apply, b10]
  refine congrArg (· + b1 (ix1 c)) (Finset.sum_congr rfl fun k _ => ?_)
  rw [l8, r8, val_main_v7_apply, t7]

/-- The result at `(r, c)`. -/
theorem aggregated1 (r : Fin 10000) (c : Fin 128) :
    val_main_v12 (F := Ideal) X A W0 b0 W1 b1 (ix2 r c)
      = ∑ l : Fin 10000, A (ix2 r l) * val_main_v11 (F := Ideal) X A W0 b0 W1 b1 (ix2 l c) := by
  rw [val_main_v12_apply]
  exact Finset.sum_congr rfl fun l _ => by rw [l12, r12]

/-! ## Agreement with the passes -/

variable (W0t : Mat 128 128) (B0 : Mat 1 128) (W1t : Mat 128 128) (B1 : Mat 1 128)

/-- The reference's second-layer features are `Gcn.feat`, for finite `A`, `X`, `W0`, `b0`. -/
theorem features_eq (hW0 : ∀ j k : Fin 128, W0t (ix2 j k) = W0 (ix2 k j)) (hB0 : ∀ k : Fin 128, B0 (ix2 0 k) = b0 (ix1 k))
    (hW1 : ∀ k c : Fin 128, W1t (ix2 k c) = W1 (ix2 c k)) (hB1 : ∀ c : Fin 128, B1 (ix2 0 c) = b1 (ix1 c))
    (fX : ∀ i, X i ≠ ⊤ ∧ X i ≠ ⊥) (fA : ∀ i, A i ≠ ⊤ ∧ A i ≠ ⊥) (fW0 : ∀ i, W0 i ≠ ⊤ ∧ W0 i ≠ ⊥)
    (fb0 : ∀ i, b0 i ≠ ⊤ ∧ b0 i ≠ ⊥) (l : Fin 10000) (c : Fin 128) :
    val_main_v11 (F := Ideal) X A W0 b0 W1 b1 (ix2 l c) = feat A X W0t B0 W1t B1 l c := by
  rw [linear1]
  unfold feat
  rw [hB1 c]
  refine congrArg (· + b1 (ix1 c)) (Finset.sum_congr rfl fun k _ => ?_)
  rw [rectified, hW1 k c]
  refine congrArg (fun s => max s (Ideal.ofBits .f32 0x00000000#32) * W1 (ix2 c k)) ?_
  unfold pre
  rw [hB0 k]
  have e : ∀ j : Fin 128, W0t (ix2 j k) = W0 (ix2 k j) := fun j => hW0 j k
  simp only [e]
  exact AffineRows.law (fun i => A (ix2 l i)) (fun i j => X (ix2 i j)) (fun j => W0 (ix2 k j)) (b0 (ix1 k))
    (fun i => fA _) (fun i j => fX _) (fun j => fW0 _) (fb0 _)

/-- The reference's result is one aggregation of `Gcn.featArr`. -/
theorem result_eq (hW0 : ∀ j k : Fin 128, W0t (ix2 j k) = W0 (ix2 k j)) (hB0 : ∀ k : Fin 128, B0 (ix2 0 k) = b0 (ix1 k))
    (hW1 : ∀ k c : Fin 128, W1t (ix2 k c) = W1 (ix2 c k)) (hB1 : ∀ c : Fin 128, B1 (ix2 0 c) = b1 (ix1 c))
    (fX : ∀ i, X i ≠ ⊤ ∧ X i ≠ ⊥) (fA : ∀ i, A i ≠ ⊤ ∧ A i ≠ ⊥) (fW0 : ∀ i, W0 i ≠ ⊤ ∧ W0 i ≠ ⊥)
    (fb0 : ∀ i, b0 i ≠ ⊤ ∧ b0 i ≠ ⊥) :
    val_main_v12 (F := Ideal) X A W0 b0 W1 b1 = aggArr A (featArr A X W0t B0 W1t B1) := by
  funext i
  obtain ⟨r, c, rfl⟩ : ∃ (r : Fin 10000) (c : Fin 128), i = ix2 r c := ⟨i 0, i 1, eq_ix2 i⟩
  rw [aggregated1]
  show _ = agg A (featArr A X W0t B0 W1t B1) r c
  unfold agg
  refine Finset.sum_congr rfl fun l _ => congrArg (A (ix2 r l) * ·) ?_
  exact features_eq X A W0 b0 W1 b1 W0t B0 W1t B1 hW0 hB0 hW1 hB1 fX fA fW0 fb0 l c

end Cert.ReferenceIdeal.RefValue

end
-- ==== Proof.Finite.lean ====
/-
  The precondition, read back: every entry of the four arrays the first layer's rearrangement touches is a real number.

  The precondition is a conjunction, over the six arguments, of "every entry's absolute value is below +inf": per
  argument a comparison of `max x (-x)` against the word `0x7F800000` (which denotes +inf), reduced by `and` over the
  whole array from the constant 1. A reduction by `and` that comes out 1 met only 1s, and `max x (-x) < ⊤` excludes
  both infinities.
-/
import proofs.«172992_g73469710566064_cont_sun_m_849_4_alg».proof.Pre_finite_inputs
import proofs.«172992_g73469710566064_cont_sun_m_849_4_alg».proof.Proof.LibRankFactor
import Idealize.ShloMosaic.PureOps.Ideal
import Idealize.ShloMosaic.Lib.ReduceAll
import Idealize.ShloMosaic.Lib.ValueIdx
import Idealize.ShloMosaic.Lib.Pipeline.Value

noncomputable section

namespace Cert.Pre_finite_inputs.Finite

open Cert.Pre_finite_inputs Idealize.ShloMosaic Idealize.ShloMosaic.ValueIdx

/-- The scalar shape has one index. -/
instance : Subsingleton S_.Idx := ⟨fun a b => funext fun d => d.elim0⟩

/-- The word `0x7F800000` denotes +inf. -/
theorem top_word : Ideal.ofBits .f32 0x7F800000#32 = (⊤ : EReal) := by
  simp [Ideal.ofBits, Ideal.ieee]

theorem ofBool_one {b : Bool} : BitVec.ofBool b = 1#1 ↔ b = true := by cases b <;> decide

/-- An entry whose absolute value compares below +inf is finite. -/
theorem finite_of_lt (x : EReal) (h : Ideal.cmp .olt (max x (-x)) (Ideal.ofBits .f32 0x7F800000#32) = 1#1) :
    x ≠ ⊤ ∧ x ≠ ⊥ := by
  rw [top_word] at h
  simp only [Ideal.cmp, ofBool_one, decide_eq_true_eq] at h
  exact RankFactor.finite_of_abs_lt_top h

/-- A conjunction of two `i1` arrays, at an index. -/
theorem andi_at {s : Shape} (a b : IVec s 1) (i : s.Idx) : andi a b i = IntOp.andi (a i) (b i) := rfl

/-- One argument's conjunct: the `and` over the whole array of "absolute value below +inf" is 1 only if every entry is
    finite. -/
theorem all_finite {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ix0 = 1#1) (i : s.Idx) : x i ≠ ⊤ ∧ x i ≠ ⊥ := by
  have e := Host.reduce_andi_all _ _ hr hu ix0 h i
  rw [cmpf_apply, broadcastInDim_apply _ hb _ i ix0 (fun a => a.elim0)] at e
  exact finite_of_lt (x i) e

variable [Cert.Pre_finite_inputs.Facts]

/-- Under the precondition the features, the adjacency, the first weights and the first bias have finite entries. -/
theorem of_pre (x0 : FVec Ideal S10000x128 .f32) (x1 : FVec Ideal S10000x10000 .f32) (x2 : FVec Ideal S128x128 .f32)
    (x3 : FVec Ideal S128 .f32) (x4 : FVec Ideal S128x128 .f32) (x5 : FVec Ideal S128 .f32)
    (h : fn (F := Ideal) x0 x1 x2 x3 x4 x5 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) ∧ (∀ i, x3 i ≠ ⊤ ∧ x3 i ≠ ⊥) := by
  have h0 := congrFun h ix0
  unfold fn fn_part1 at h0
  dsimp only at h0
  simp only [andi_at, IntOp.andi_eq_one] at h0
  obtain ⟨⟨⟨⟨⟨a0, a1⟩, a2⟩, a3⟩, -⟩, -⟩ := h0
  exact ⟨all_finite x0 _ _ _ a0, all_finite x1 _ _ _ a1, all_finite x2 _ _ _ a2, all_finite x3 _ _ _ a3⟩

end Cert.Pre_finite_inputs.Finite

end
-- ==== Proof.lean ====
/-
  A two-layer graph convolution over a dense 10000 × 10000 adjacency `A`, computed in two passes of row blocks, against
  the plain formula `A · (relu (A · (X · W0ᵀ + b0)) · W1ᵀ + b1)`.

  The passes fold the first linear layer through the aggregation: a row block of `A` is multiplied with `X` first,
  then with `W0ᵀ`, and the bias `b0` is weighted by the block's row sums. On the extended reals this rearrangement,

      ∑ i, A(l,i) · (∑ j, X(i,j) · W0(k,j) + b0(k))  =  ∑ j, (∑ i, A(l,i) · X(i,j)) · W0(k,j) + (∑ i, A(l,i)) · b0(k),

  needs distributivity and an exchange of two finite sums, which hold where every entry is a real number and fail at
  the infinities; the precondition (every input finite) supplies that for `A`, `X`, `W0`, `b0`
  (Proof/Finite.lean, Proof/LibAffineRows.lean). The rectifier, the second linear layer and the second aggregation
  are the same terms on both sides.

  The kernel program's result is read off its run: each pass writes back, per grid point, one 80-row block of a
  matrix that is a single function of the arrays the pass finds (Proof/Tiles.lean: one point at coordinates;
  Proof/Pass1.lean, Proof/Pass2.lean: the blocks tile the array; Proof/KernelRun.lean, Proof/KernelValue.lean: the
  run and the result as a function of the launch contents, `Gcn.aggArr A (Gcn.featArr A X W0ᵀ b0 W1ᵀ b1)` of
  Proof/Spec.lean). The reference's run is read one operation at a time and shown to be the same function
  (Proof/RefValue.lean). Nothing was rewritten in idealizing the kernel, so that claim is trivial; the three frames
  are the runs with their results dropped.
-/
import proofs.«172992_g73469710566064_cont_sun_m_849_4_alg».proof.Defs
import proofs.«172992_g73469710566064_cont_sun_m_849_4_alg».proof.Proof.Gen.Kernel
import proofs.«172992_g73469710566064_cont_sun_m_849_4_alg».proof.Proof.Gen.Kernel.Frame
import proofs.«172992_g73469710566064_cont_sun_m_849_4_alg».proof.Proof.Gen.KernelIdeal
import proofs.«172992_g73469710566064_cont_sun_m_849_4_alg».proof.Proof.Gen.KernelIdeal.Frame
import proofs.«172992_g73469710566064_cont_sun_m_849_4_alg».proof.Proof.Gen.ReferenceIdeal
import proofs.«172992_g73469710566064_cont_sun_m_849_4_alg».proof.Proof.Gen.ReferenceIdeal.Run
import proofs.«172992_g73469710566064_cont_sun_m_849_4_alg».proof.Proof.Gen.ReferenceIdeal.Read
import proofs.«172992_g73469710566064_cont_sun_m_849_4_alg».proof.Proof.Gen.Pre_finite_inputs
import proofs.«172992_g73469710566064_cont_sun_m_849_4_alg».proof.Proof.KernelValue
import proofs.«172992_g73469710566064_cont_sun_m_849_4_alg».proof.Proof.RefValue
import proofs.«172992_g73469710566064_cont_sun_m_849_4_alg».proof.Proof.Finite
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx Cert.Gcn

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- A transposed matrix at `(j, k)` is the matrix at `(k, j)`. -/
theorem transposed_at (W : Mat 128 128) (h : (⟨2, ![128, 128]⟩ : Shape).Transposes [1, 0] ⟨2, ![128, 128]⟩) (j k : Fin 128) :
    transpose ⟨2, ![128, 128]⟩ [1, 0] W h (ix2 j k) = W (ix2 k j) :=
  transpose_ix2_apply W h j k

/-- A bias recast as a row, at `(0, k)`, is the bias at `k`. -/
theorem row_at (b : FVec Ideal ⟨1, ![128]⟩ .f32) (h : (⟨1, ![128]⟩ : Shape).ShapeCasts ⟨2, ![1, 128]⟩) (k : Fin 128) :
    shapeCast ⟨2, ![1, 128]⟩ b h (ix2 0 k) = b (ix1 k) :=
  shapeCast_a_1a_apply b h 0 k

/-- From memories that agree on the arguments, under the precondition, both programs end with the result at
    `aggArr A (featArr A X W0ᵀ b0 W1ᵀ b1)` of the kernel's launch contents. -/
theorem algebraic : Cert.algebraic_KernelIdeal_ReferenceIdeal := by
  intro m ρ m' ρ' hpre hagree
  refine ⟨_, Cert.KernelIdeal.Passes.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  obtain ⟨fX, fA, fW0, fb0⟩ := Cert.Pre_finite_inputs.Finite.of_pre _ _ _ _ _ _ (hpre c)
  rw [e0, e1, e2, e3, e4, e5]
  refine (Cert.ReferenceIdeal.Read.val_main_v12_eq _ _ _ _ _ _).trans ?_
  exact Cert.ReferenceIdeal.RefValue.result_eq _ _ _ _ _ _ _ _ _ _
    (fun j k => transposed_at _ _ j k) (fun k => row_at _ _ k) (fun k c => transposed_at _ _ k c) (fun c => row_at _ _ c)
    fX fA fW0 fb0

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
